-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S16384x4096, .bf16⟩
  | .hbm, ⟨5, _⟩ => ⟨S4096x4096, .bf16⟩
  | .hbm, ⟨6, _⟩ => ⟨S1x4096, .f32⟩
  | .hbm, ⟨7, _⟩ => ⟨S16384x4096, .f32⟩
  | .hbm, ⟨8, _⟩ => ⟨S8x2048x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S8x2048x4096 : S16384x4096.ShapeCasts S8x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S1x1x4096, .f32⟩
  | .hbm, ⟨5, _⟩ => ⟨S8x2048x4096, .f32⟩
  | .hbm, ⟨6, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one grid point of the matmul kernel leaves behind, as values.

  The body keeps a [2048, 1024] accumulator in scratch. At a point it (re)starts the accumulator from the zero
  block when the contraction coordinate k is 0, adds the product of the point's x block [2048, 512] and A block
  [1024, 512] (contracted over their second axes) to it, and, when k is the last one, stores accumulator + bias row
  into the output block. So, with `step acc x a = acc + x·aᵀ`:

    first k   : scratch ends at  step 0 x a
    middle k  : scratch ends at  step acc x a          (acc: what the point before left)
    last k    : scratch ends at  step acc x a, the output block at  (step acc x a) + bias row

  Each statement reads the stores the body's run found back as one value: a store through the whole buffer
  leaves its payload, and a load through the whole buffer reads the contents.
-/
import proofs.«181607_j49718541419169_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-buffer rectangle starts at the origin. -/
theorem origin : (![0, 0] : Fin 2 → Nat) = fun _ => 0 := funext fun a => by fin_cases a <;> rfl

/-- First contraction block: the scratch accumulator ends at `0 + x·aᵀ` (the zero block stored, read back, and the
    product added). -/
theorem scratch_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, harg3.read_unread, harg4.read_unread, View.ld_unit_zero (S := S2048x512) origin,
    View.ld_unit_zero (S := S1024x512) origin]

/-- A middle contraction block: the scratch accumulator ends at `acc + x·aᵀ`. -/
theorem scratch_middle (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S2048x1024) origin]
  simp only [View.readAt_eq_ld, harg3.read_unread, harg4.read_unread, harg7.read_unread,
    View.ld_unit_zero (S := S2048x512) origin, View.ld_unit_zero (S := S1024x512) origin,
    View.ld_unit_zero (S := S2048x1024) origin]

/-- The last contraction block: the scratch accumulator ends at `acc + x·aᵀ` … -/
theorem scratch_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S2048x1024) origin]
  simp only [View.readAt_eq_ld, harg3.read_unread, harg4.read_unread, harg7.read_unread,
    View.ld_unit_zero (S := S2048x512) origin, View.ld_unit_zero (S := S1024x512) origin,
    View.ld_unit_zero (S := S2048x1024) origin]

/-- … and the output block at that accumulator plus the bias row. -/
theorem out_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S2048x1024) origin, View.readCov_unit_zero (S := S2048x1024) _ origin]
  simp only [View.readAt_eq_ld, harg3.read_unread, harg4.read_unread, harg5.read_unread, harg7.read_unread,
    View.ld_unit_zero (S := S2048x512) origin, View.ld_unit_zero (S := S1024x512) origin,
    View.ld_unit_zero (S := S2048x1024) origin, View.ld_unit_zero (S := S1x1024) origin]

end Cert.KernelIdeal.Pieces

end
-- ==== Proof.Payload.lean ====
/-
  The body's three stored values, read at one element (r, c) of the [2048, 1024] block, over the extended reals:

    the zero block           : 0
    the accumulation step    : acc(r, c) + Σ_{k < 512} x(r, k) · a(c, k)      (x·aᵀ: both operands contracted over
                                                                              their second axis, into a zero accumulator)
    the output               : acc(r, c) + bias(0, c)                          (the bias row repeated down the rows)

  The changes of float format in the program are the identity on extended reals and the block-to-block shape casts
  are between equal shapes, so nothing else is left of the printed arithmetic.
-/
import proofs.«181607_j49718541419169_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The zero block is zero everywhere. -/
theorem zero_apply (y : S2048x1024.Idx) : k0_pay1 (F := Ideal) y = 0 := by
  unfold k0_pay1
  simp only [shapeCast_self]
  exact Ideal.ofBits_zero_f32

/-! ### The operands' indices of the product at output (r, c) and contraction position k: (r, k) and (c, k) -/

theorem lhs_row (j : S2048x1024.Idx) (q : dot_S2048x512_S1024x512_S2048x1024_1_1_0_0_n_n.contr.Idx) :
    (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_contr (j : S2048x1024.Idx) (q : dot_S2048x512_S1024x512_S2048x1024_1_1_0_0_n_n.contr.Idx) :
    (dot_S2048x512_S1024x512_S2048x1024_1_1_0_0_n_n.lhsIdx j q 1).val = (q ⟨0, by decide⟩).val :=
  dot_S2048x512_S1024x512_S2048x1024_1_1_0_0_n_n.lhsIdx_val_of_single rfl j q
theorem rhs_row (j : S2048x1024.Idx) (q : dot_S2048x512_S1024x512_S2048x1024_1_1_0_0_n_n.contr.Idx) :
    (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_contr (j : S2048x1024.Idx) (q : dot_S2048x512_S1024x512_S2048x1024_1_1_0_0_n_n.contr.Idx) :
    (dot_S2048x512_S1024x512_S2048x1024_1_1_0_0_n_n.rhsIdx j q 1).val = (q ⟨0, by decide⟩).val :=
  dot_S2048x512_S1024x512_S2048x1024_1_1_0_0_n_n.rhsIdx_val_of_single rfl j q

/-- The block product into a zero accumulator, at (r, c): Σ_k x(r, k) · a(c, k). -/
theorem product_apply (x : FVec Ideal S2048x512 .bf16) (a : FVec Ideal S1024x512 .bf16) (r : Fin 2048) (cc : Fin 1024) :
    matmul (F := Ideal) dot_S2048x512_S1024x512_S2048x1024_1_1_0_0_n_n none x a (constant S2048x1024 .f32 0x00000000#32) (ix2 r cc)
      = ∑ k : Fin 512, x (ix2 r k) * a (ix2 cc k) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r cc) ((contrEquiv1 dot_S2048x512_S1024x512_S2048x1024_1_1_0_0_n_n 512 rfl rfl).symm k) = ix2 r k := funext fun ax => Fin.ext (by
    match ax with
    | ⟨0, _⟩ => exact lhs_row _ _
    | ⟨1, _⟩ => exact (lhs_contr _ _).trans hk)
  have er : dot_S2048x512_S1024x512_S2048x1024_1_1_0_0_n_n.rhsIdx (ix2 r cc) ((contrEquiv1 dot_S2048x512_S1024x512_S2048x1024_1_1_0_0_n_n 512 rfl rfl).symm k) = ix2 cc k := funext fun ax => Fin.ext (by
    match ax with
    | ⟨0, _⟩ => exact rhs_row _ _
    | ⟨1, _⟩ => exact (rhs_contr _ _).trans hk)
  rw [el, er]

/-- One accumulation step at (r, c): what was there plus the block product. -/
theorem step_apply (acc : Vec Ideal S2048x1024 .f32) (x : Vec Ideal S2048x512 .bf16) (a : Vec Ideal S1024x512 .bf16)
    (r : Fin 2048) (cc : Fin 1024) :
    k0_pay2 (F := Ideal) acc x a (ix2 r cc) = acc (ix2 r cc) + ∑ k : Fin 512, x (ix2 r k) * a (ix2 cc k) := by
  unfold k0_pay2
  simp only [shapeCast_self]
  exact congrArg (acc (ix2 r cc) + ·) (product_apply x a r cc)

/-- The output at (r, c): the accumulator plus the bias row's entry c. -/
theorem output_apply (acc : Vec Ideal S2048x1024 .f32) (b : Vec Ideal S1x1024 .f32) (r : Fin 2048) (cc : Fin 1024) :
    k0_pay3 (F := Ideal) acc b (ix2 r cc) = acc (ix2 r cc) + b (ix2 (0 : Fin 1) cc) := by
  unfold k0_pay3
  simp only [shapeCast_self]
  exact congrArg (acc (ix2 r cc) + ·) (broadcastTo_1b_ab_apply b _ r cc)

end Cert.KernelIdeal.Payload

end
-- ==== Proof.Accumulate.lean ====
/-
  The accumulator across the grid. The contraction coordinate k = t % 8 is the innermost grid axis, so the eight
  points 8q, 8q + 1, …, 8q + 7 share one output block and run one after the other through the same scratch
  accumulator: point 8q restarts it at 0 + (its block product), each later one adds its own block product, and
  point 8q + 7 also stores accumulator + bias row. By induction along the run (never over the 256 points), after
  point 8q + 7 the accumulator at (r, c) is

      0 + Σ_{s < 8} Σ_{k < 512} xblock_{8q+s}(r, k) · ablock_{8q+s}(c, k)

  and the stored output block is that plus the bias block's entry (0, c).
-/
import proofs.«181607_j49718541419169_2_alg».proof.Proof.Pieces
import proofs.«181607_j49718541419169_2_alg».proof.Proof.Payload

set_option maxRecDepth 16384

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen

section AnyValues

variable {F : FTy → Type} [FloatOps F]
variable (m : (ℓ : Loc nD τ sig) → Buf (Elt F) ℓ)

/-- Point n's x block, A block and bias block, as vectors of their literal shapes. -/
def xblk (c : Dev nD) (n : ℕ) (h : n < cfg0.N) : Vec F S2048x512 .bf16 := iblk m c 0 ⟨n, h⟩
def ablk (c : Dev nD) (n : ℕ) (h : n < cfg0.N) : Vec F S1024x512 .bf16 := iblk m c 1 ⟨n, h⟩
def bblk (c : Dev nD) (t : Fin cfg0.N) : Vec F S1x1024 .f32 := iblk m c 2 t

/-- What the first point of a run leaves in the accumulator: the zero block plus its block product. -/
def restart (c : Dev nD) (n : ℕ) (h : n < cfg0.N) : Vec F S2048x1024 .f32 :=
  k0_pay2 (k0_pay1 (F := F)) (xblk m c n h) (ablk m c n h)

/-- What a later point makes of the accumulator: it adds its block product. -/
def advance (c : Dev nD) (n : ℕ) (h : n < cfg0.N) (acc : Vec F S2048x1024 .f32) : Vec F S2048x1024 .f32 :=
  k0_pay2 acc (xblk m c n h) (ablk m c n h)

/-- At a point with k = 0 the accumulator is restarted. -/
theorem scratch_restart (c : Dev nD) (n : ℕ) (h : n < cfg0.N) (h0 : n % 8 = 0) :
    (outsAt0 m c n h).2 = restart m c n h := by
  have h1 : ¬n % 8 = 7 := by omega
  rw [outsAt0_A m c ⟨n, h⟩ h0 h1]
  dsimp only
  unfold restart xblk ablk
  exact Pieces.scratch_first _ _ _ _ _ _ _ _ _ _ _ _ _ _ _ _ _

/-- At a point with k ≠ 0 it advances from what the point before left. -/
theorem scratch_advance (c : Dev nD) (n : ℕ) (h : n + 1 < cfg0.N) (h0 : ¬(n + 1) % 8 = 0) :
    (outsAt0 m c (n + 1) h).2 = advance m c (n + 1) h (outsAt0 m c n (Nat.lt_of_succ_lt h)).2 := by
  by_cases h7 : (n + 1) % 8 = 7
  · rw [outsAt0_C m c ⟨n + 1, h⟩ h0 h7]
    dsimp only
    unfold advance xblk ablk
    exact Pieces.scratch_last _ _ _ _ _ _ _ _ _ _ _ _ _ _ _ _ _ _
  · rw [outsAt0_B m c ⟨n + 1, h⟩ h0 h7]
    dsimp only
    unfold advance xblk ablk
    exact Pieces.scratch_middle _ _ _ _ _ _ _ _ _ _ _ _ _ _ _ _ _ _

/-- At a point with k = 7 the output block is the accumulator it leaves plus the bias row. -/
theorem out_at_last (c : Dev nD) (t : Fin cfg0.N) (h7 : t.val % 8 = 7) :
    (outsAt0 m c t.val t.isLt).1 = k0_pay3 (outsAt0 m c t.val t.isLt).2 (bblk m c t) := by
  have h0 : ¬t.val % 8 = 0 := by omega
  rw [outsAt0_C m c t h0 h7]
  dsimp only
  unfold bblk
  rw [Pieces.out_last, Pieces.scratch_last]

end AnyValues

section AtIdeal

variable (m : (ℓ : Loc nD τ sig) → Buf (Elt Ideal) ℓ)

/-- Point n's block product at an element (zero for a natural that is no grid point, so that it is a function of
    every natural). -/
def addend (c : Dev nD) (n : ℕ) (y : S2048x1024.Idx) : EReal :=
  if h : n < cfg0.N then ∑ k : Fin 512, xblk m c n h (ix2 (y 0) k) * ablk m c n h (ix2 (y 1) k) else 0

/-- The same with the element given by its coordinates. -/
theorem addend_ix2 (c : Dev nD) (n : ℕ) (r : Fin 2048) (cc : Fin 1024) :
    addend m c n (ix2 r cc) = if h : n < cfg0.N then ∑ k : Fin 512, xblk m c n h (ix2 r k) * ablk m c n h (ix2 cc k) else 0 := rfl

/-- The restart at an element: 0 + the point's block product. -/
theorem restart_apply (c : Dev nD) (n : ℕ) (h : n < cfg0.N) (y : S2048x1024.Idx) :
    restart m c n h y = 0 + addend m c n y := by
  obtain ⟨r, cc, rfl⟩ : ∃ (r : Fin 2048) (cc : Fin 1024), y = ix2 r cc := ⟨y 0, y 1, eq_ix2 y⟩
  have e := Payload.step_apply (k0_pay1 (F := Ideal)) (xblk m c n h) (ablk m c n h) r cc
  rw [Payload.zero_apply] at e
  rw [addend_ix2, dif_pos h]
  exact e

/-- The advance at an element: what was there + the point's block product. -/
theorem advance_apply (c : Dev nD) (n : ℕ) (h : n < cfg0.N) (acc : Vec Ideal S2048x1024 .f32) (y : S2048x1024.Idx) :
    advance m c n h acc y = acc y + addend m c n y := by
  obtain ⟨r, cc, rfl⟩ : ∃ (r : Fin 2048) (cc : Fin 1024), y = ix2 r cc := ⟨y 0, y 1, eq_ix2 y⟩
  have e := Payload.step_apply acc (xblk m c n h) (ablk m c n h) r cc
  rw [addend_ix2, dif_pos h]
  exact e

/-- After the last point 8q + 7 of a run the accumulator holds the eight block products' sum. -/
theorem scratch_after_run (c : Dev nD) (q : ℕ) (h : 8 * q + 7 < cfg0.N) (y : S2048x1024.Idx) :
    (outsAt0 m c (8 * q + 7) h).2 y = 0 + ∑ s ∈ Finset.range 8, addend m c (8 * q + s) y := by
  rw [show (outsAt0 m c (8 * q + 7) h).2 = _ from
    Pipeline.eq_accAt (fun n h => (outsAt0 m c n h).2) 8 (restart m c) (advance m c)
      (scratch_restart m c) (scratch_advance m c) q 7 (by decide) h]
  exact Pipeline.accAt_add_apply (restart m c) (advance m c) (fun _ => (0 : EReal)) (addend m c) (8 * q) 7
    (fun h i => restart_apply m c _ h i) (fun n h acc i _ _ => advance_apply m c n h acc i) 7 (le_refl _) h y

end AtIdeal

end Cert.KernelIdeal.Acc

end
-- ==== Proof.Blocks.lean ====
/-
  Where each window's block sits in its array. The grid is (i, j, k) = (8, 4, 8) with k innermost, so point t has
  i = t / 32, j = (t / 8) % 4, k = t % 8. At point t

    the x block [2048, 512]  is rows 2048·i …, columns 512·k …  of the flattened x  [16384, 4096]
    the A block [1024, 512]  is rows 1024·j …, columns 512·k …  of A                [4096, 4096]
    the bias block [1, 1024] is columns 1024·j …                of the bias row     [1, 4096]
    the output block [2048, 1024] is rows 2048·i …, columns 1024·j … of the result  [16384, 4096]

  (a block's coordinate in the array is always block index × block size + the coordinate inside the block).
-/
import proofs.«181607_j49718541419169_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The four index maps in closed form, decided over the 256 grid points. -/
theorem index_facts : ∀ t : Fin cfg0.N,
    win0_0.index t (0 : Fin 2) = t.val / 32 ∧ win0_0.index t (1 : Fin 2) = t.val % 8 ∧
    win0_1.index t (0 : Fin 2) = t.val / 8 % 4 ∧ win0_1.index t (1 : Fin 2) = t.val % 8 ∧
    win0_2.index t (0 : Fin 2) = 0 ∧ win0_2.index t (1 : Fin 2) = t.val / 8 % 4 ∧
    win0_3.index t (0 : Fin 2) = t.val / 32 ∧ win0_3.index t (1 : Fin 2) = t.val / 8 % 4 :=
  (by decide +kernel : ∀ t : Fin grid0.N,
    win0_0.index t (0 : Fin 2) = t.val / 32 ∧ win0_0.index t (1 : Fin 2) = t.val % 8 ∧
    win0_1.index t (0 : Fin 2) = t.val / 8 % 4 ∧ win0_1.index t (1 : Fin 2) = t.val % 8 ∧
    win0_2.index t (0 : Fin 2) = 0 ∧ win0_2.index t (1 : Fin 2) = t.val / 8 % 4 ∧
    win0_3.index t (0 : Fin 2) = t.val / 32 ∧ win0_3.index t (1 : Fin 2) = t.val / 8 % 4)

/-- Entry (r, k) of the x block at point t is entry (2048·(t/32) + r, 512·(t%8) + k) of the flattened x. -/
theorem x_block (c : Dev nD) (t : Fin cfg0.N) (r : Fin 2048) (k : Fin 512) (R : Fin 16384) (K : Fin 4096)
    (hR : R.val = 2048 * (t.val / 32) + r.val) (hK : K.val = 512 * (t.val % 8) + k.val) :
    (iblk m c 0 t : Vec F S2048x512 .bf16) (ix2 r k) = (V m c main_v1 : Vec F S16384x4096 .bf16) (ix2 R K) := by
  unfold iblk
  rw [View.read_apply]
  refine congrArg (V m c main_v1 : Vec F S16384x4096 .bf16) (funext fun a => Fin.ext ?_)
  match a with
  | ⟨0, _⟩ => show win0_0.index t 0 * 2048 + 1 * r.val = R.val; rw [(index_facts t).1, hR]; omega
  | ⟨1, _⟩ => show win0_0.index t 1 * 512 + 1 * k.val = K.val; rw [(index_facts t).2.1, hK]; omega

/-- Entry (cc, k) of the A block at point t is entry (1024·((t/8)%4) + cc, 512·(t%8) + k) of A. -/
theorem a_block (c : Dev nD) (t : Fin cfg0.N) (cc : Fin 1024) (k : Fin 512) (C : Fin 4096) (K : Fin 4096)
    (hC : C.val = 1024 * (t.val / 8 % 4) + cc.val) (hK : K.val = 512 * (t.val % 8) + k.val) :
    (iblk m c 1 t : Vec F S1024x512 .bf16) (ix2 cc k) = (V m c main_v2 : Vec F S4096x4096 .bf16) (ix2 C K) := by
  unfold iblk
  rw [View.read_apply]
  refine congrArg (V m c main_v2 : Vec F S4096x4096 .bf16) (funext fun a => Fin.ext ?_)
  match a with
  | ⟨0, _⟩ => show win0_1.index t 0 * 1024 + 1 * cc.val = C.val; rw [(index_facts t).2.2.1, hC]; omega
  | ⟨1, _⟩ => show win0_1.index t 1 * 512 + 1 * k.val = K.val; rw [(index_facts t).2.2.2.1, hK]; omega

/-- Entry (0, cc) of the bias block at point t is entry (0, 1024·((t/8)%4) + cc) of the bias row. -/
theorem bias_block (c : Dev nD) (t : Fin cfg0.N) (cc : Fin 1024) (C : Fin 4096)
    (hC : C.val = 1024 * (t.val / 8 % 4) + cc.val) :
    (iblk m c 2 t : Vec F S1x1024 .f32) (ix2 (0 : Fin 1) cc) = (V m c main_v3 : Vec F S1x4096 .f32) (ix2 (0 : Fin 1) C) := by
  unfold iblk
  rw [View.read_apply]
  refine congrArg (V m c main_v3 : Vec F S1x4096 .f32) (funext fun a => Fin.ext ?_)
  match a with
  | ⟨0, _⟩ => show win0_2.index t 0 * 1 + 1 * 0 = 0; rw [(index_facts t).2.2.2.2.1]
  | ⟨1, _⟩ => show win0_2.index t 1 * 1024 + 1 * cc.val = C.val; rw [(index_facts t).2.2.2.2.2.1, hC]; omega

end Cert.KernelIdeal.Blocks

end
-- ==== Proof.Entry.lean ====
/-
  What the region finds in its three operand arrays, in terms of the program's arguments: the host lines before the
  call flatten x [8, 2048, 4096] to [16384, 4096] (row 2048·b + s is (b, s)), change x's and A's float format (the
  identity on extended reals), and view the bias [4096] as one row [1, 4096].
-/
import proofs.«181607_j49718541419169_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ)

/-- The flattened x at (2048·b + s, k) is x at (b, s, k). -/
theorem x_entry (c : Dev nD) (b : Fin 8) (s : Fin 2048) (k : Fin 4096) (R : Fin 16384) (hR : R.val = 2048 * b.val + s.val) :
    (V m c main_v1 : Vec Ideal S16384x4096 .bf16) (ix2 R k) = (m ((c : Thread nD τ).loc main_arg0) : Vec Ideal S8x2048x4096 .f32) (ix3 b s k) := by
  have e : (V m c main_v1 : Vec Ideal S16384x4096 .bf16)
      = truncf (F := Ideal) .bf16 (shapeCast S16384x4096 (m ((c : Thread nD τ).loc main_arg0) : Vec Ideal S8x2048x4096 .f32) shapeCasts_S8x2048x4096_S16384x4096) bitsLt_bf16_f32 := by
    show StableHlo.after hostOps0 (fun b => m (c, b)) (Proc.devRef .tc main_v1) = _
    after_results
    rfl
  rw [e]
  refine (shapeCast_apply _ shapeCasts_S8x2048x4096_S16384x4096 (ix2 R k) (ix3 b s k) ?_)
  rw [Shape.rowMajor_val_two, Shape.rowMajor_val_three]
  show (b.val * 2048 + s.val) * 4096 + k.val = R.val * 4096 + k.val
  rw [hR]; ring

/-- The A the region finds is the argument A. -/
theorem a_entry (c : Dev nD) (i : S4096x4096.Idx) :
    (V m c main_v2 : Vec Ideal S4096x4096 .bf16) i = (m ((c : Thread nD τ).loc main_arg1) : Vec Ideal S4096x4096 .f32) i := by
  have e : (V m c main_v2 : Vec Ideal S4096x4096 .bf16)
      = truncf (F := Ideal) .bf16 (m ((c : Thread nD τ).loc main_arg1) : Vec Ideal S4096x4096 .f32) bitsLt_bf16_f32 := by
    show StableHlo.after hostOps0 (fun b => m (c, b)) (Proc.devRef .tc main_v2) = _
    after_results
  rw [e]
  rfl

/-- The bias row at (0, o) is the bias at o. -/
theorem bias_entry (c : Dev nD) (o : Fin 4096) :
    (V m c main_v3 : Vec Ideal S1x4096 .f32) (ix2 (0 : Fin 1) o) = (m ((c : Thread nD τ).loc main_arg2) : Vec Ideal S4096 .f32) (ix1 o) := by
  have e : (V m c main_v3 : Vec Ideal S1x4096 .f32)
      = shapeCast S1x4096 (m ((c : Thread nD τ).loc main_arg2) : Vec Ideal S4096 .f32) shapeCasts_S4096_S1x4096 := by
    show StableHlo.after hostOps0 (fun b => m (c, b)) (Proc.devRef .tc main_v3) = _
    after_results
    rfl
  rw [e]
  exact shapeCast_a_1a_apply _ shapeCasts_S4096_S1x4096 (0 : Fin 1) o

end Cert.KernelIdeal.Entry

end
-- ==== Proof.BlockSum.lean ====
/-
  A sum of a·b terms, cut into a consecutive stretches of b terms each, is the sum of the stretches' sums:
  Σ_{s<a} Σ_{k<b} f(s·b + k) = Σ_{i<a·b} f i, in any commutative additive monoid (so over the extended reals,
  where only associativity and commutativity of + are available). Stated over ranges of naturals, and once more
  with the inner and the total sum over `Fin`.
-/
import Mathlib.Algebra.BigOperators.Fin

open scoped BigOperators

namespace Cert.BlockSum

variable {β : Type*} [AddCommMonoid β]

/-- Σ_{s<a} Σ_{k<b} f(s·b + k) = Σ_{i<a·b} f i, by induction on the number of stretches: the last stretch is
    the tail of the long sum. -/
theorem sum_range_blocks (f : ℕ → β) (b : ℕ) :
    ∀ a : ℕ, ∑ s ∈ Finset.range a, ∑ k ∈ Finset.range b, f (s * b + k) = ∑ i ∈ Finset.range (a * b), f i
  | 0 => by simp
  | a + 1 => by
    rw [Finset.sum_range_succ, sum_range_blocks f b a, Nat.succ_mul, Finset.sum_range_add]

/-- The same with the inner sum over `Fin b` and the total over `Fin n`, `n = a·b`. -/
theorem sum_fin_blocks (f : ℕ → β) (a b n : ℕ) (hn : a * b = n) :
    ∑ s ∈ Finset.range a, ∑ k : Fin b, f (s * b + k.val) = ∑ i : Fin n, f i.val := by
  subst hn
  rw [← Finset.sum_range (fun i => f i), ← sum_range_blocks f b a]
  refine Finset.sum_congr rfl fun s _ => ?_
  exact (Finset.sum_range (fun k => f (s * b + k))).symm

end Cert.BlockSum
-- ==== Proof.Spec.lean ====
/-
  The linear layer both programs compute, over the extended reals, and the one law that joins the two ways of
  summing it.

    linear x A b (β, s, o) = Σ_{i < 4096} x(β, s, i) · A(o, i) + b(o)

  The reference takes the 4096-term sum at once. The kernel works on the flattened x (row 2048·β + s) and takes
  the sum as 8 consecutive stretches of 512 terms, added one stretch after the other; by associativity and
  commutativity of + alone (no finiteness is needed: no product is distributed over a sum) the 8 partial sums
  add up to the whole sum (`sum_stretches`).
-/
import proofs.«181607_j49718541419169_2_alg».proof.Proof.BlockSum
import Idealize.ShloMosaic.Lib.ValueIdx

noncomputable section

open Idealize.ShloMosaic Idealize.ShloMosaic.ValueIdx
open scoped BigOperators

namespace Cert.Spec

/-- Entry (β, s, o) of x·Aᵀ + b. -/
def linear (x : (⟨3, ![8, 2048, 4096]⟩ : Shape).Idx → EReal) (a : (⟨2, ![4096, 4096]⟩ : Shape).Idx → EReal)
    (bias : (⟨1, ![4096]⟩ : Shape).Idx → EReal) : (⟨3, ![8, 2048, 4096]⟩ : Shape).Idx → EReal :=
  fun j => (∑ i : Fin 4096, x (ix3 (j 0) (j 1) i) * a (ix2 (j 2) i)) + bias (ix1 (j 2))

/-- The same over the flattened x [16384, 4096] and the bias as a row [1, 4096]: entry (R, C). -/
def flat (X : (⟨2, ![16384, 4096]⟩ : Shape).Idx → EReal) (A : (⟨2, ![4096, 4096]⟩ : Shape).Idx → EReal)
    (B : (⟨2, ![1, 4096]⟩ : Shape).Idx → EReal) : (⟨2, ![16384, 4096]⟩ : Shape).Idx → EReal :=
  fun j => (∑ i : Fin 4096, X (ix2 (j 0) i) * A (ix2 (j 1) i)) + B (ix2 (0 : Fin 1) (j 1))

/-- Term i of the inner product of row R of X with row C of A (zero past the contraction extent, so that it is a
    function of every natural). -/
def term (X : (⟨2, ![16384, 4096]⟩ : Shape).Idx → EReal) (A : (⟨2, ![4096, 4096]⟩ : Shape).Idx → EReal)
    (R : Fin 16384) (C : Fin 4096) (i : ℕ) : EReal :=
  if h : i < 4096 then X (ix2 R ⟨i, h⟩) * A (ix2 C ⟨i, h⟩) else 0

/-- Inside the contraction extent the term is the product. -/
theorem term_eq (X : (⟨2, ![16384, 4096]⟩ : Shape).Idx → EReal) (A : (⟨2, ![4096, 4096]⟩ : Shape).Idx → EReal)
    (R : Fin 16384) (C : Fin 4096) (i : ℕ) (K : Fin 4096) (hK : K.val = i) :
    term X A R C i = X (ix2 R K) * A (ix2 C K) := by
  subst hK
  unfold term
  rw [dif_pos K.isLt]

/-- Eight stretches of 512 terms are the whole inner product. -/
theorem sum_stretches (X : (⟨2, ![16384, 4096]⟩ : Shape).Idx → EReal) (A : (⟨2, ![4096, 4096]⟩ : Shape).Idx → EReal)
    (R : Fin 16384) (C : Fin 4096) :
    ∑ s ∈ Finset.range 8, ∑ k : Fin 512, term X A R C (s * 512 + k.val) = ∑ i : Fin 4096, X (ix2 R i) * A (ix2 C i) := by
  rw [Cert.BlockSum.sum_fin_blocks (term X A R C) 8 512 4096 rfl]
  exact Finset.sum_congr rfl fun i _ => term_eq X A R C i.val i rfl

end Cert.Spec

end
-- ==== Proof.Result.lean ====
/-
  The kernel's result. Put together:

   * the output block stored at the last point 8q + 7 of a run is, at (r, c),
       Σ_{s < 8} Σ_{k < 512} X(2048·i + r, 512·s + k) · A(1024·j + c, 512·s + k) + B(0, 1024·j + c)
     with i = q / 4 and j = q % 4 — the eight stretches of the inner product of row 2048·i + r of the flattened x
     with row 1024·j + c of A, plus the bias; by `sum_stretches` that is entry (2048·i + r, 1024·j + c) of
     `flat X A B`: every written block is its block of ONE array;
   * the 32 output blocks tile the [16384, 4096] result (entry (R, C) lies in the block of i = R / 2048,
     j = C / 1024), so the result array ends holding `flat X A B`;
   * the host line after the call views it as [8, 2048, 4096], and the lines before it made X, A, B from the
     arguments, so the program's result is `linear x A b`.
-/
import proofs.«181607_j49718541419169_2_alg».proof.Proof.Accumulate
import proofs.«181607_j49718541419169_2_alg».proof.Proof.Blocks
import proofs.«181607_j49718541419169_2_alg».proof.Proof.Entry
import proofs.«181607_j49718541419169_2_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen

variable (m : (ℓ : Loc nD τ sig) → Buf (Elt Ideal) ℓ) (ρ : Dev nD → PrngReg)

/-- The three operand arrays as the region finds them. -/
def X (c : Dev nD) : Vec Ideal S16384x4096 .bf16 := V m c main_v1
def A (c : Dev nD) : Vec Ideal S4096x4096 .bf16 := V m c main_v2
def B (c : Dev nD) : Vec Ideal S1x4096 .f32 := V m c main_v3

/-- The flattened result [16384, 4096]. -/
def flatResult (c : Dev nD) : Vec Ideal S16384x4096 .f32 := Cert.Spec.flat (X m c) (A m c) (B m c)

/-- Entry (r, c) of the output block stored at a last point t is entry (2048·(t/32) + r, 1024·((t/8)%4) + c) of
    the flattened result. -/
theorem out_block_apply (c : Dev nD) (t : Fin cfg0.N) (h7 : t.val % 8 = 7) (r : Fin 2048) (cc : Fin 1024)
    (R : Fin 16384) (C : Fin 4096) (hR : R.val = 2048 * (t.val / 32) + r.val) (hC : C.val = 1024 * (t.val / 8 % 4) + cc.val) :
    (outsAt0 m c t.val t.isLt).1 (ix2 r cc) = flatResult m c (ix2 R C) := by
  have hN : t.val < 256 := lt_of_lt_of_eq t.isLt (show cfg0.N = 256 from N_0)
  have hq : 8 * (t.val / 8) + 7 = t.val := by omega
  have same : ∀ (u : ℕ) (hu : u < cfg0.N), u = t.val → (outsAt0 m c u hu).2 = (outsAt0 m c t.val t.isLt).2 := by
    intro u hu e; subst e; rfl
  have hrun := Acc.scratch_after_run m c (t.val / 8) (by rw [hq]; exact t.isLt) (ix2 r cc)
  rw [same _ _ hq] at hrun
  rw [Acc.out_at_last m c t h7]
  refine (Payload.output_apply (outsAt0 m c t.val t.isLt).2 (Acc.bblk m c t) r cc).trans ?_
  rw [hrun, zero_add]
  unfold Acc.bblk
  rw [Blocks.bias_block m c t cc C hC]
  show _ = (∑ i : Fin 4096, X m c (ix2 R i) * A m c (ix2 C i)) + B m c (ix2 (0 : Fin 1) C)
  rw [← Cert.Spec.sum_stretches (X m c) (A m c) R C]
  unfold B
  congr 1
  refine Finset.sum_congr rfl fun s hs => ?_
  have hs8 : s < 8 := Finset.mem_range.mp hs
  have hn : 8 * (t.val / 8) + s < cfg0.N :=
    lt_of_lt_of_eq (by omega : 8 * (t.val / 8) + s < 256) (show cfg0.N = 256 from N_0).symm
  rw [Acc.addend_ix2, dif_pos hn]
  refine Finset.sum_congr rfl fun k _ => ?_
  have hk : k.val < 512 := k.isLt
  have hK : s * 512 + k.val < 4096 := by omega
  rw [Cert.Spec.term_eq _ _ R C (s * 512 + k.val) ⟨s * 512 + k.val, hK⟩ rfl]
  unfold Acc.xblk Acc.ablk X A
  rw [Blocks.x_block m c ⟨8 * (t.val / 8) + s, hn⟩ r k R ⟨s * 512 + k.val, hK⟩
        (by show R.val = 2048 * ((8 * (t.val / 8) + s) / 32) + r.val; omega)
        (by show s * 512 + k.val = 512 * ((8 * (t.val / 8) + s) % 8) + k.val; omega),
      Blocks.a_block m c ⟨8 * (t.val / 8) + s, hn⟩ cc k C ⟨s * 512 + k.val, hK⟩
        (by show C.val = 1024 * ((8 * (t.val / 8) + s) / 8 % 4) + cc.val; omega)
        (by show s * 512 + k.val = 512 * ((8 * (t.val / 8) + s) % 8) + k.val; omega)]

/-- What a last point writes back is its block of the flattened result. -/
theorem flushed_eq (c : Dev nD) (t : Fin cfg0.N) (hf : (cfg0.win 3).flush t = true) :
    (dats m 0 c).flushed 3 t = ((cfg0.win 3).blk t).view.read (Elt Ideal) (flatResult m c) := by
  have h7 : t.val % 8 = 7 := (flush0_3 t).mp hf
  have hN : t.val < 256 := lt_of_lt_of_eq t.isLt (show cfg0.N = 256 from N_0)
  show (cfg0.win 3).cut (grid0.coords t) ((dats m 0 c).after 3 t) = _
  rw [after0_3]
  funext y
  rw [View.read_apply]
  have hy0 : (y 0).val < 2048 := (y 0).isLt
  have hy1 : (y 1).val < 1024 := (y 1).isLt
  have eL : (cfg0.win 3).xinj (grid0.coords t) y
      = (ix2 (⟨(y 0).val, hy0⟩ : Fin 2048) (⟨(y 1).val, hy1⟩ : Fin 1024) : S2048x1024.Idx) :=
    funext fun a => Fin.ext (by
      match a with
      | ⟨0, _⟩ => rfl
      | ⟨1, _⟩ => rfl)
  have eR : ((cfg0.win 3).blk t).view.emb y
      = (ix2 (⟨2048 * (t.val / 32) + (y 0).val, by omega⟩ : Fin 16384) (⟨1024 * (t.val / 8 % 4) + (y 1).val, by omega⟩ : Fin 4096) : S16384x4096.Idx) :=
    funext fun a => Fin.ext (by
      match a with
      | ⟨0, _⟩ => show win0_3.index t 0 * 2048 + 1 * (y 0).val = 2048 * (t.val / 32) + (y 0).val; rw [(Blocks.index_facts t).2.2.2.2.2.2.1]; omega
      | ⟨1, _⟩ => show win0_3.index t 1 * 1024 + 1 * (y 1).val = 1024 * (t.val / 8 % 4) + (y 1).val; rw [(Blocks.index_facts t).2.2.2.2.2.2.2]; omega)
  show (outsAt0 m c t.val t.isLt).1 ((cfg0.win 3).xinj (grid0.coords t) y) = _
  rw [eL, eR]
  exact out_block_apply m c t h7 _ _ _ _ rfl rfl

/-- Every entry of the result array lies in the block some last point writes back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 16384 := (i 0).isLt
  have h1 : (i 1 : Nat) < 4096 := (i 1).isLt
  have hN : cfg0.N = 256 := N_0
  have hb : ((i 0 : Nat) / 2048 * 4 + (i 1 : Nat) / 1024) * 8 + 7 < cfg0.N := by rw [hN]; omega
  refine ⟨⟨_, hb⟩, (flush0_3 ⟨_, hb⟩).mpr (by show (((i 0 : Nat) / 2048 * 4 + (i 1 : Nat) / 1024) * 8 + 7) % 8 = 7; omega), ?_⟩
  show i ∈ ((View.whole main_v4).slice (win0_3.rect ⟨_, hb⟩)).set
  rw [View.set_slice_whole, Rect.mem_set_unit]
  intro a
  match a with
  | ⟨0, _⟩ =>
    show win0_3.index ⟨_, hb⟩ 0 * 2048 ≤ (i 0 : Nat) ∧ (i 0 : Nat) < win0_3.index ⟨_, hb⟩ 0 * 2048 + 2048
    rw [(Blocks.index_facts ⟨_, hb⟩).2.2.2.2.2.2.1]
    show (((i 0 : Nat) / 2048 * 4 + (i 1 : Nat) / 1024) * 8 + 7) / 32 * 2048 ≤ (i 0 : Nat) ∧ (i 0 : Nat) < (((i 0 : Nat) / 2048 * 4 + (i 1 : Nat) / 1024) * 8 + 7) / 32 * 2048 + 2048
    omega
  | ⟨1, _⟩ =>
    show win0_3.index ⟨_, hb⟩ 1 * 1024 ≤ (i 1 : Nat) ∧ (i 1 : Nat) < win0_3.index ⟨_, hb⟩ 1 * 1024 + 1024
    rw [(Blocks.index_facts ⟨_, hb⟩).2.2.2.2.2.2.2]
    show (((i 0 : Nat) / 2048 * 4 + (i 1 : Nat) / 1024) * 8 + 7) / 8 % 4 * 1024 ≤ (i 1 : Nat) ∧ (i 1 : Nat) < (((i 0 : Nat) / 2048 * 4 + (i 1 : Nat) / 1024) * 8 + 7) / 8 % 4 * 1024 + 1024
    omega

/-- So the result array of the call ends holding the flattened result. -/
theorem final (c : Dev nD) : (dats m 0 c).arrAt 3 cfg0.N = flatResult m c :=
  (dats m 0 c).arrAt_eq_of_cover 3 (flatResult m c) (flushed_eq m c) (cover c)

end Cert.KernelIdeal.Result

end
-- ==== Proof.Program.lean ====
/-
  The whole idealized kernel program: after the call one host line views the flattened result [16384, 4096] as
  [8, 2048, 4096] (entry (β, s, o) is row 2048·β + s, column o), and before it the host lines made the three operand
  arrays from the arguments; so every weakly fair execution ends with the result at `linear x A b` of the arguments,
  and the arguments unchanged.
-/
import proofs.«181607_j49718541419169_2_alg».proof.Proof.Result

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen

variable (m : (ℓ : Loc nD τ sig) → Buf (Elt Ideal) ℓ) (ρ : Dev nD → PrngReg)

/-- The three arguments, as arrays of their literal shapes. -/
def xArg (c : Dev nD) : Vec Ideal S8x2048x4096 .f32 := m ((c.tc : Thread nD τ).loc main_arg0)
def aArg (c : Dev nD) : Vec Ideal S4096x4096 .f32 := m ((c.tc : Thread nD τ).loc main_arg1)
def bArg (c : Dev nD) : Vec Ideal S4096 .f32 := m ((c.tc : Thread nD τ).loc main_arg2)

/-- The program's result buffer holds the flattened result viewed as [8, 2048, 4096]. -/
theorem tail_eq (c : Dev nD) :
    Pipeline.afterTail₀ cfgs (dats m) 0 (V0 m) [hostOps1] c main_v5
      = shapeCast S8x2048x4096 (flatResult m c) shapeCasts_S16384x4096_S8x2048x4096 := by
  unfold Pipeline.afterTail₀
  show StableHlo.after hostOps1 _ (Proc.devRef .tc main_v5) = _
  after_results
  rw [(Pipeline.withArrays_arr spec0 launch0.win.arr_inj c _ _ 3).trans (final m c)]
  rfl

/-- That view of the flattened result is the linear layer of the arguments. -/
theorem view_eq (c : Dev nD) :
    shapeCast S8x2048x4096 (flatResult m c) shapeCasts_S16384x4096_S8x2048x4096
      = Cert.Spec.linear (m ((c.tc : Thread nD τ).loc main_arg0)) (m ((c.tc : Thread nD τ).loc main_arg1)) (m ((c.tc : Thread nD τ).loc main_arg2)) := by
  funext j
  obtain ⟨b, s, o, rfl⟩ : ∃ (b : Fin 8) (s : Fin 2048) (o : Fin 4096), j = ix3 b s o := ⟨j 0, j 1, j 2, eq_ix3 j⟩
  have hb : b.val < 8 := b.isLt
  have hs : s.val < 2048 := s.isLt
  have hR : 2048 * b.val + s.val < 16384 := by omega
  refine (shapeCast_apply _ shapeCasts_S16384x4096_S8x2048x4096 (ix3 b s o) (ix2 (⟨2048 * b.val + s.val, hR⟩ : Fin 16384) o) ?_).trans ?_
  · rw [Shape.rowMajor_val_two, Shape.rowMajor_val_three]
    show (2048 * b.val + s.val) * 4096 + o.val = (b.val * 2048 + s.val) * 4096 + o.val
    ring
  · show (∑ i : Fin 4096, X m c (ix2 (⟨2048 * b.val + s.val, hR⟩ : Fin 16384) i) * A m c (ix2 o i)) + B m c (ix2 (0 : Fin 1) o)
      = (∑ i : Fin 4096, xArg m c (ix3 b s i) * aArg m c (ix2 o i)) + bArg m c (ix1 o)
    unfold X A B xArg aArg bArg
    rw [Entry.bias_entry m c o]
    congr 1
    refine Finset.sum_congr rfl fun i _ => ?_
    rw [Entry.x_entry m c b s i ⟨2048 * b.val + s.val, hR⟩ rfl, Entry.a_entry m c (ix2 o i)]

/-- The run of the idealized kernel program, read: the result at the linear layer of the arguments, the arguments
    as they were. -/
theorem run : θ_run defs (onTc (τ := τ) (main (F := Ideal))) ⟨m, fun _ => 0, ρ⟩ fun r => ∀ c : Dev nD,
      r.2.mem ((c.tc : Thread nD τ).loc main_v5) = Cert.Spec.linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans ((tail_eq m c).trans (view_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference computes the linear layer: its dot_general contracts x's last axis with A's last axis, all 4096
  terms at once, and the bias is broadcast along the two leading axes before the add; so entry (β, s, o) of its
  result is Σ_i x(β, s, i) · A(o, i) + b(o).
-/
import proofs.«181607_j49718541419169_2_alg».proof.Proof.Gen.ReferenceIdeal.Read
import proofs.«181607_j49718541419169_2_alg».proof.Proof.Spec

noncomputable section

open Idealize.ShloMosaic Idealize.ShloMosaic.ValueIdx

namespace Cert.ReferenceIdeal.RefValue

open Cert.ReferenceIdeal Cert.ReferenceIdeal.Read

/-- The reference's result, as a function of its three arguments, is `linear`. -/
theorem reference_eq (x : Vec Ideal S8x2048x4096 .f32) (a : Vec Ideal S4096x4096 .f32) (bias : Vec Ideal S4096 .f32) :
    val_main_v3 (F := Ideal) x a bias = Cert.Spec.linear x a bias := by
  funext i
  have el : ∀ k : Fin 4096, lidx_main_v0 i k = ix3 (i 0) (i 1) k := fun k => funext fun ax => Fin.ext (by
    match ax with
    | ⟨0, _⟩ => rfl
    | ⟨1, _⟩ => rfl
    | ⟨2, _⟩ => rfl)
  have er : ∀ k : Fin 4096, ridx_main_v0 i k = ix2 (i 2) k := fun k => funext fun ax => Fin.ext (by
    match ax with
    | ⟨0, _⟩ => rfl
    | ⟨1, _⟩ => rfl)
  have eb : idx_main_v1 (idx_main_v2 i) = ix1 (i 2) := funext fun ax => Fin.ext (by
    match ax with
    | ⟨0, _⟩ => rfl)
  rw [val_main_v3_apply, val_main_v0_apply, val_main_v2_apply, val_main_v1_apply]
  unfold Cert.Spec.linear
  simp only [el, er, eb, Ideal.addf_def]
  rfl

end Cert.ReferenceIdeal.RefValue

end
-- ==== Proof.lean ====
/-
  A tiled matmul kernel, y = x·Aᵀ + b with x [8, 2048, 4096], A [4096, 4096], b [4096], against jnp's einsum + b.

  The kernel flattens x to [16384, 4096] and runs a grid (i, j, k) = (8, 4, 8): output tile (i, j) of size
  [2048, 1024] is accumulated in scratch over the eight contraction blocks k of 512 columns (zeroed at k = 0, the
  bias row added and the tile stored at k = 7). The reference contracts all 4096 columns at once. Over the extended
  reals both give, at (β, s, o), Σ_{i < 4096} x(β, s, i) · A(o, i) + b(o): the changes of float format are the
  identity there, and eight consecutive partial sums of 512 terms add up to the whole sum by associativity and
  commutativity of + alone, so the precondition (finite inputs) is never opened.

  The three frames are the generated ones (the reference's is its generated run with the result dropped); the
  idealized kernel is the kernel's own text read over the extended reals, so `preserves` is trivial; `algebraic` pairs the kernel program's run
  (Proof/Program.lean) with the reference's generated run read as the same function (Proof/RefValue.lean).
-/
import proofs.«181607_j49718541419169_2_alg».proof.Defs
import proofs.«181607_j49718541419169_2_alg».proof.Proof.Gen.Kernel
import proofs.«181607_j49718541419169_2_alg».proof.Proof.Gen.Kernel.Skeleton
import proofs.«181607_j49718541419169_2_alg».proof.Proof.Gen.Kernel.Launch
import proofs.«181607_j49718541419169_2_alg».proof.Proof.Gen.Kernel.Points
import proofs.«181607_j49718541419169_2_alg».proof.Proof.Gen.Kernel.Frame
import proofs.«181607_j49718541419169_2_alg».proof.Proof.Gen.KernelIdeal
import proofs.«181607_j49718541419169_2_alg».proof.Proof.Gen.KernelIdeal.Skeleton
import proofs.«181607_j49718541419169_2_alg».proof.Proof.Gen.KernelIdeal.Launch
import proofs.«181607_j49718541419169_2_alg».proof.Proof.Gen.KernelIdeal.Points
import proofs.«181607_j49718541419169_2_alg».proof.Proof.Gen.KernelIdeal.Frame
import proofs.«181607_j49718541419169_2_alg».proof.Proof.Gen.ReferenceIdeal
import proofs.«181607_j49718541419169_2_alg».proof.Proof.Gen.ReferenceIdeal.Run
import proofs.«181607_j49718541419169_2_alg».proof.Proof.Gen.ReferenceIdeal.Read
import proofs.«181607_j49718541419169_2_alg».proof.Proof.Gen.Pre_finite_inputs
import proofs.«181607_j49718541419169_2_alg».proof.Proof.Program
import proofs.«181607_j49718541419169_2_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: nothing to restate. -/
theorem preserves : Cert.preserves_Kernel_KernelIdeal := trivial

/-- From memories that agree on x, A and b, both idealized programs end with the linear layer of them. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
